-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S50000x64 : Shape := ⟨2, ![50000, 64]⟩
abbrev S5000x128 : Shape := ⟨2, ![5000, 128]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 62
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000x64, .f32⟩
  | .hbm, ⟨39, _⟩ => ⟨S_, .f32⟩
  | .hbm, ⟨40, _⟩ => ⟨S50000x64, .f32⟩
  | .hbm, ⟨41, _⟩ => ⟨S1650000x1, .i32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x64, .f32⟩
  | .hbm, ⟨54, _⟩ => ⟨S_, .f32⟩
  | .hbm, ⟨55, _⟩ => ⟨S50000x64, .f32⟩
  | .hbm, ⟨56, _⟩ => ⟨S1650000x1, .i32⟩
  | .hbm, ⟨57, _⟩ => ⟨S50000x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x64, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x64, .f32⟩
  | .hbm, ⟨56, _⟩ => ⟨S1650000x1, .f32⟩
  | .hbm, ⟨57, _⟩ => ⟨S1650000x64, .f32⟩
  | .hbm, ⟨58, _⟩ => ⟨S1650000x64, .f32⟩
  | .hbm, ⟨59, _⟩ => ⟨S_, .f32⟩
  | .hbm, ⟨60, _⟩ => ⟨S50000x64, .f32⟩
  | .hbm, ⟨61, _⟩ => ⟨S1650000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000, .i32⟩
  | .hbm, ⟨70, _⟩ => ⟨S1650000, .i32⟩
  | .hbm, ⟨71, _⟩ => ⟨S1650000, .i32⟩
  | .hbm, ⟨72, _⟩ => ⟨S_, .f32⟩
  | .hbm, ⟨73, _⟩ => ⟨S1650000, .f32⟩
  | .hbm, ⟨74, _⟩ => ⟨S_, .f32⟩
  | .hbm, ⟨75, _⟩ => ⟨S50000, .f32⟩
  | .hbm, ⟨76, _⟩ => ⟨S1650000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S1650000, .i32⟩
  | .hbm, ⟨88, _⟩ => ⟨S1650000, .i1⟩
  | .hbm, ⟨89, _⟩ => ⟨S_, .i32⟩
  | .hbm, ⟨90, _⟩ => ⟨S1650000, .i32⟩
  | .hbm, ⟨91, _⟩ => ⟨S1650000, .i32⟩
  | .hbm, ⟨92, _⟩ => ⟨S1650000, .i32⟩
  | .hbm, ⟨93, _⟩ => ⟨S1650000x1, .i32⟩
  | .hbm, ⟨94, _⟩ => ⟨S1650000, .f32⟩
  | .hbm, ⟨95, _⟩ => ⟨S_, .i32⟩
  | .hbm, ⟨96, _⟩ => ⟨S1650000, .i32⟩
  | .hbm, ⟨97, _⟩ => ⟨S1650000, .i1⟩
  | .hbm, ⟨98, _⟩ => ⟨S_, .i32⟩
  | .hbm, ⟨99, _⟩ => ⟨S1650000, .i32⟩
  | .hbm, ⟨100, _⟩ => ⟨S1650000, .i32⟩
  | .hbm, ⟨101, _⟩ => ⟨S1650000, .i32⟩
  | .hbm, ⟨102, _⟩ => ⟨S1650000x1, .i32⟩
  | .hbm, ⟨103, _⟩ => ⟨S1650000, .f32⟩
  | .hbm, ⟨104, _⟩ => ⟨S1650000, .f32⟩
  | .hbm, ⟨105, _⟩ => ⟨S50000x64, .f32⟩
  | .hbm, ⟨106, _⟩ => ⟨S_, .i32⟩
  | .hbm, ⟨107, _⟩ => ⟨S1650000, .i32⟩
  | .hbm, ⟨108, _⟩ => ⟨S1650000, .i1⟩
  | .hbm, ⟨109, _⟩ => ⟨S_, .i32⟩
  | .hbm, ⟨110, _⟩ => ⟨S1650000, .i32⟩
  | .hbm, ⟨111, _⟩ => ⟨S1650000, .i32⟩
  | .hbm, ⟨112, _⟩ => ⟨S1650000, .i32⟩
  | .hbm, ⟨113, _⟩ => ⟨S1650000x1, .i32⟩
  | .hbm, ⟨114, _⟩ => ⟨S1650000x64, .f32⟩
  | .hbm, ⟨115, _⟩ => ⟨S1650000x1, .f32⟩
  | .hbm, ⟨116, _⟩ => ⟨S1650000x64, .f32⟩
  | .hbm, ⟨117, _⟩ => ⟨S1650000x64, .f32⟩
  | .hbm, ⟨118, _⟩ => ⟨S_, .f32⟩
  | .hbm, ⟨119, _⟩ => ⟨S50000x64, .f32⟩
  | .hbm, ⟨120, _⟩ => ⟨S1650000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run with its result named.

  The program is seven segments: three stretches of host operations (the degree histogram, the inverse square
  root of the degrees and its broadcast over the 64 channels), the first matrix-product region, a stretch that
  gathers the scaled rows along the edges and adds them into their target nodes, the second region, and a last
  stretch doing the same for layer two and adding the bias. Every unscoped buffer ends at the contents the
  segments fold to from the launch memory, so the result buffer ends at that fold's value, and the six
  argument arrays end as launched.
-/
import proofs.«179716_j10170482556975_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    seven segments fold to from the launch memory, and the argument arrays are as launched. -/
theorem run_result : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.GcnRun

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.Region0.lean ====
/-
  The first matrix-product region, as one function of the arrays it finds.

  The grid has ten points; point t handles rows 5000·t … 5000·t + 4999. Its body loads that block of rows of X
  (128 columns), the whole 128×64 matrix W and the same block of rows of D, multiplies the block of X by W with a zero
  accumulator (the rounding of both operands to a shorter format is the identity on exact values) and multiplies the
  product by the block of D entry by entry. The ten row blocks tile the 50000 rows, so after the region the output array
  holds, at every (v, c),

      ( Σ over k < 128 of  X(v, k) · W(k, c) ) · D(v, c).
-/
import proofs.«179716_j10170482556975_2_alg».proof.Proof.Gen.KernelIdeal.Frame
import proofs.«179716_j10170482556975_2_alg».proof.Proof.LibPlainDot
import Idealize.ShloMosaic.Lib.Pipeline.Value
import Idealize.ShloMosaic.Lib.ValueIdx

set_option maxRecDepth 16384

noncomputable section

namespace Cert.KernelIdeal.GcnR0

open Cert.KernelIdeal Cert.KernelIdeal.Gen
open Idealize.ShloMosaic Idealize.ShloMosaic.TcCoe Idealize.ShloMosaic.ValueIdx Idealize.SL.Sem
open Idealize.ShloMosaic.Pipeline (Dat)

/-- (X · W) scaled entry by entry by D. -/
def scaledProduct (X : S50000x128.Idx → EReal) (W : S128x64.Idx → EReal) (D : S50000x64.Idx → EReal) :
    S50000x64.Idx → EReal :=
  fun i => (∑ k : Fin 128, X (ix2 (i 0) k) * W (ix2 k (i 1))) * D i

theorem hz : (![0, 0] : Fin 2 → Nat) = fun _ => 0 := funext fun a => by fin_cases a <;> rfl

/-- The body's stored value at entry y of the block: the row of the X block times the column of W, times the D block's
    entry. -/
theorem pay_apply (x0 : Vec Ideal S5000x128 .f32) (x1 : Vec Ideal S128x64 .f32) (x2 : Vec Ideal S5000x64 .f32)
    (y : S5000x64.Idx) :
    k0_pay1 (F := Ideal) x0 x1 x2 y = (∑ k : Fin 128, x0 (ix2 (y 0) k) * x1 (ix2 k (y 1))) * x2 y := by
  unfold k0_pay1
  rw [mulf_apply, Idealize.ShloMosaic.shapeCast_self]
  exact congrArg (· * x2 y)
    (Cert.LibPlainDot.matmul_zero_plain 5000 128 64 none (truncf .bf16 x0 bitsLt_bf16_f32) (truncf .bf16 x1 bitsLt_bf16_f32) y)

/-- The printed index maps over the grid: the X and D blocks move with the output block down the rows, W does not move,
    and no block moves along the columns. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem idx_onto : ∀ q : Fin 10, ∃ t : Fin cfg0.N, win0_3.index t = ![q.val, 0] :=
  (by decide +kernel : ∀ q : Fin 10, ∃ t : Fin grid0.N, win0_3.index t = ![q.val, 0])

variable (V : (c : Dev nD) → (b : Ref sig .tc) → Buf (Elt Ideal) ((c : Thread nD τ).loc b))

/-- What point t writes back is block t of the scaled product of the arrays the region finds. -/
theorem flushed_eq (c : Dev nD) (t : Fin cfg0.N) :
    (dat0 V c).flushed 3 t
      = ((cfg0.win 3).blk t).view.read (Elt Ideal) (scaledProduct (V c main_arg0) (V c main_arg2) (V c main_v16)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x64) hz]
  obtain ⟨e0, e1, e2, e3, e4, e5, e6, e7⟩ := idx_facts t
  funext y
  show k0_pay1 (F := Ideal) (iblk0 V c 0 t) (iblk0 V c 1 t) (iblk0 V c 2 t) y
    = scaledProduct (V c main_arg0) (V c main_arg2) (V c main_v16) (((cfg0.win 3).blk t).view.emb y)
  rw [pay_apply]
  have hy0 : (y 0).val < 5000 := (y 0).isLt
  have hy1 : (y 1).val < 64 := (y 1).isLt
  have hx : ∀ k : Fin 128, iblk0 V c 0 t (ix2 (y 0) k)
      = V c main_arg0 (ix2 ((((cfg0.win 3).blk t).view.emb y) 0) k) := fun k => by
    show V c main_arg0 (((cfg0.win 0).blk t).view.emb (ix2 (y 0) k)) = _
    refine congrArg (V c main_arg0) (funext fun a => Fin.ext ?_)
    match a with
    | ⟨0, _⟩ =>
      show win0_0.index t (0 : Fin 2) * 5000 + 1 * (y 0).val = win0_3.index t (0 : Fin 2) * 5000 + 1 * (y 0).val
      omega
    | ⟨1, _⟩ =>
      show win0_0.index t (1 : Fin 2) * 128 + 1 * k.val = k.val
      omega
  have hw : ∀ k : Fin 128, iblk0 V c 1 t (ix2 k (y 1))
      = V c main_arg2 (ix2 k ((((cfg0.win 3).blk t).view.emb y) 1)) := fun k => by
    show V c main_arg2 (((cfg0.win 1).blk t).view.emb (ix2 k (y 1))) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 64 + 1 * (y 1).val = win0_3.index t (1 : Fin 2) * 64 + 1 * (y 1).val
      omega
  have hd : iblk0 V c 2 t y = V c main_v16 (((cfg0.win 3).blk t).view.emb y) := by
    show V c main_v16 (((cfg0.win 2).blk t).view.emb y) = _
    refine congrArg (V c main_v16) (funext fun a => Fin.ext ?_)
    match a with
    | ⟨0, _⟩ =>
      show win0_2.index t (0 : Fin 2) * 5000 + 1 * (y 0).val = win0_3.index t (0 : Fin 2) * 5000 + 1 * (y 0).val
      omega
    | ⟨1, _⟩ =>
      show win0_2.index t (1 : Fin 2) * 64 + 1 * (y 1).val = win0_3.index t (1 : Fin 2) * 64 + 1 * (y 1).val
      omega
  unfold scaledProduct
  rw [hd]
  exact congrArg (· * _) (Finset.sum_congr rfl fun k _ => by rw [hx k, hw k])

/-- An index of the output array is in point t's block iff each coordinate is in the block's range on its axis. -/
theorem mem_blk (t : Fin cfg0.N) (i : S50000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v17).slice (win0_3.rect t)).set ↔ _
  rw [View.set_slice_whole, Rect.mem_set_unit]
  exact Iff.rfl

/-- The ten row blocks cover the array: row r is in the block of the point whose block number is r / 5000. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- THE OUTPUT ARRAY after the region: the scaled product of the three arrays the region finds. -/
theorem final (c : Dev nD) :
    (dat0 V c).arrAt 3 cfg0.N = scaledProduct (V c main_arg0) (V c main_arg2) (V c main_v16) :=
  (dat0 V c).arrAt_eq_of_cover 3 (scaledProduct (V c main_arg0) (V c main_arg2) (V c main_v16))
    (fun t _ => flushed_eq V c t) cover

end Cert.KernelIdeal.GcnR0

end
-- ==== Proof.Region1.lean ====
/-
  The second matrix-product region, as one function of the arrays it finds.

  Again ten points over blocks of 5000 rows. The body loads its block of rows of A (the sums that layer one gathered
  at the nodes) and of D, the one row b of biases and the whole 64×64 matrix W. It forms, entry by entry,

      hidden(v, k) = max( A(v, k) · D(v, k) + b(k), 0 ),

  multiplies the block of hidden by W with a zero accumulator (the rounding of the operands to a shorter format is
  the identity on exact values) and scales the product by the block of D. The row blocks tile the 50000 rows, so after the
  region the output array holds, at every (v, c),

      ( Σ over k < 64 of  hidden(v, k) · W(k, c) ) · D(v, c).
-/
import proofs.«179716_j10170482556975_2_alg».proof.Proof.Gen.KernelIdeal.Frame
import proofs.«179716_j10170482556975_2_alg».proof.Proof.LibPlainDot
import Idealize.ShloMosaic.Lib.Pipeline.Value
import Idealize.ShloMosaic.Lib.ValueIdx
import Idealize.ShloMosaic.Lib.IdealHost

set_option maxRecDepth 16384

noncomputable section

namespace Cert.KernelIdeal.GcnR1

open Cert.KernelIdeal Cert.KernelIdeal.Gen
open Idealize.ShloMosaic Idealize.ShloMosaic.TcCoe Idealize.ShloMosaic.ValueIdx Idealize.SL.Sem
open Idealize.ShloMosaic.Pipeline (Dat)

/-- Layer one's output after its bias and the cut at zero. -/
def hidden (A D : S50000x64.Idx → EReal) (b : S1x64.Idx → EReal) : S50000x64.Idx → EReal :=
  fun i => max (A i * D i + b (ix2 (0 : Fin 1) (i 1))) 0

/-- (hidden · W) scaled entry by entry by D. -/
def secondProduct (A D : S50000x64.Idx → EReal) (b : S1x64.Idx → EReal) (W : S64x64.Idx → EReal) :
    S50000x64.Idx → EReal :=
  fun i => (∑ k : Fin 64, hidden A D b (ix2 (i 0) k) * W (ix2 k (i 1))) * D i

theorem hz : (![0, 0] : Fin 2 → Nat) = fun _ => 0 := funext fun a => by fin_cases a <;> rfl

/-- The body's stored value at entry y of the block. -/
theorem pay_apply (v0 v2 : Vec Ideal S5000x64 .f32) (v5 : Vec Ideal S1x64 .f32) (v12 : Vec Ideal S64x64 .f32)
    (v15 : Vec Ideal S5000x64 .f32) (y : S5000x64.Idx) :
    k1_pay1 (F := Ideal) v0 v2 v5 v12 v15 y
      = (∑ k : Fin 64, max (v0 (ix2 (y 0) k) * v2 (ix2 (y 0) k) + v5 (ix2 (0 : Fin 1) k)) 0 * v12 (ix2 k (y 1))) * v15 y := by
  unfold k1_pay1
  simp only [Idealize.ShloMosaic.shapeCast_self]
  rw [mulf_apply]
  refine congrArg (· * v15 y) ?_
  refine (Cert.LibPlainDot.matmul_zero_plain 5000 64 64 none _ _ y).trans ?_
  refine Finset.sum_congr rfl fun k _ => ?_
  refine congrArg (· * v12 (ix2 k (y 1))) ?_
  show max (v0 (ix2 (y 0) k) * v2 (ix2 (y 0) k) + broadcastTo S5000x64 v5 broadcasts_S1x64_S5000x64 (ix2 (y 0) k))
      (Ideal.ofBits .f32 0x00000000#32) = _
  rw [Ideal.ofBits_zero_f32,
    broadcastTo_apply v5 broadcasts_S1x64_S5000x64 (ix2 (y 0) k) (ix2 (0 : Fin 1) k)
      (fun a => by match a with | ⟨0, _⟩ => rfl | ⟨1, _⟩ => rfl)]

/-- The printed index maps over the grid: the A and D blocks move with the output block down the rows, the bias row and W
    do not move, and no block moves along the columns. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks is some point's. -/
theorem idx_onto : ∀ q : Fin 10, ∃ t : Fin cfg1.N, win1_4.index t = ![q.val, 0] :=
  (by decide +kernel : ∀ q : Fin 10, ∃ t : Fin grid1.N, win1_4.index t = ![q.val, 0])

variable (V : (c : Dev nD) → (b : Ref sig .tc) → Buf (Elt Ideal) ((c : Thread nD τ).loc b))

/-- What point t writes back is block t of the second product of the arrays the region finds. -/
theorem flushed_eq (c : Dev nD) (t : Fin cfg1.N) :
    (dat1 V c).flushed 4 t
      = ((cfg1.win 4).blk t).view.read (Elt Ideal)
          (secondProduct (V c main_v27) (V c main_v16) (V c main_v28) (V c main_arg4)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S64x64) hz]
  obtain ⟨e0, e1, e2, e3, e4, e5, e6, e7, e8, e9⟩ := idx_facts t
  funext y
  show k1_pay1 (F := Ideal) (iblk1 V c 0 t) (iblk1 V c 1 t) (iblk1 V c 2 t) (iblk1 V c 3 t) (iblk1 V c 1 t) y
    = secondProduct (V c main_v27) (V c main_v16) (V c main_v28) (V c main_arg4) (((cfg1.win 4).blk t).view.emb y)
  rw [pay_apply]
  have hy0 : (y 0).val < 5000 := (y 0).isLt
  have hy1 : (y 1).val < 64 := (y 1).isLt
  have ha : ∀ k : Fin 64, iblk1 V c 0 t (ix2 (y 0) k)
      = V c main_v27 (ix2 ((((cfg1.win 4).blk t).view.emb y) 0) k) := fun k => by
    show V c main_v27 (((cfg1.win 0).blk t).view.emb (ix2 (y 0) k)) = _
    refine congrArg (V c main_v27) (funext fun a => Fin.ext ?_)
    match a with
    | ⟨0, _⟩ =>
      show win1_0.index t (0 : Fin 2) * 5000 + 1 * (y 0).val = win1_4.index t (0 : Fin 2) * 5000 + 1 * (y 0).val
      omega
    | ⟨1, _⟩ =>
      show win1_0.index t (1 : Fin 2) * 64 + 1 * k.val = k.val
      omega
  have hdk : ∀ k : Fin 64, iblk1 V c 1 t (ix2 (y 0) k)
      = V c main_v16 (ix2 ((((cfg1.win 4).blk t).view.emb y) 0) k) := fun k => by
    show V c main_v16 (((cfg1.win 1).blk t).view.emb (ix2 (y 0) k)) = _
    refine congrArg (V c main_v16) (funext fun a => Fin.ext ?_)
    match a with
    | ⟨0, _⟩ =>
      show win1_1.index t (0 : Fin 2) * 5000 + 1 * (y 0).val = win1_4.index t (0 : Fin 2) * 5000 + 1 * (y 0).val
      omega
    | ⟨1, _⟩ =>
      show win1_1.index t (1 : Fin 2) * 64 + 1 * k.val = k.val
      omega
  have hb : ∀ k : Fin 64, iblk1 V c 2 t (ix2 (0 : Fin 1) k) = V c main_v28 (ix2 (0 : Fin 1) k) := fun k => by
    show V c main_v28 (((cfg1.win 2).blk t).view.emb (ix2 (0 : Fin 1) k)) = _
    refine congrArg (V c main_v28) (funext fun a => Fin.ext ?_)
    match a with
    | ⟨0, _⟩ =>
      show win1_2.index t (0 : Fin 2) * 1 + 1 * 0 = 0
      omega
    | ⟨1, _⟩ =>
      show win1_2.index t (1 : Fin 2) * 64 + 1 * k.val = k.val
      omega
  have hw : ∀ k : Fin 64, iblk1 V c 3 t (ix2 k (y 1))
      = V c main_arg4 (ix2 k ((((cfg1.win 4).blk t).view.emb y) 1)) := fun k => by
    show V c main_arg4 (((cfg1.win 3).blk t).view.emb (ix2 k (y 1))) = _
    refine congrArg (V c main_arg4) (funext fun a => Fin.ext ?_)
    match a with
    | ⟨0, _⟩ =>
      show win1_3.index t (0 : Fin 2) * 64 + 1 * k.val = k.val
      omega
    | ⟨1, _⟩ =>
      show win1_3.index t (1 : Fin 2) * 64 + 1 * (y 1).val = win1_4.index t (1 : Fin 2) * 64 + 1 * (y 1).val
      omega
  have hd : iblk1 V c 1 t y = V c main_v16 (((cfg1.win 4).blk t).view.emb y) := by
    show V c main_v16 (((cfg1.win 1).blk t).view.emb y) = _
    refine congrArg (V c main_v16) (funext fun a => Fin.ext ?_)
    match a with
    | ⟨0, _⟩ =>
      show win1_1.index t (0 : Fin 2) * 5000 + 1 * (y 0).val = win1_4.index t (0 : Fin 2) * 5000 + 1 * (y 0).val
      omega
    | ⟨1, _⟩ =>
      show win1_1.index t (1 : Fin 2) * 64 + 1 * (y 1).val = win1_4.index t (1 : Fin 2) * 64 + 1 * (y 1).val
      omega
  unfold secondProduct
  rw [hd]
  refine congrArg (· * _) (Finset.sum_congr rfl fun k _ => ?_)
  rw [ha k, hdk k, hb k, hw k]
  rfl

/-- An index of the output array is in point t's block iff each coordinate is in the block's range on its axis. -/
theorem mem_blk (t : Fin cfg1.N) (i : S50000x64.Idx) :
    i ∈ ((cfg1.win 4).blk t).view.set
      ↔ ∀ a : Fin 2, win1_4.index t a * S5000x64.size a ≤ (i a).val
          ∧ (i a).val < win1_4.index t a * S5000x64.size a + S5000x64.size a := by
  show i ∈ ((View.whole main_v29).slice (win1_4.rect t)).set ↔ _
  rw [View.set_slice_whole, Rect.mem_set_unit]
  exact Iff.rfl

/-- The ten row blocks cover the array. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- THE OUTPUT ARRAY after the region: the second product of the four arrays the region finds. -/
theorem final (c : Dev nD) :
    (dat1 V c).arrAt 4 cfg1.N = secondProduct (V c main_v27) (V c main_v16) (V c main_v28) (V c main_arg4) :=
  (dat1 V c).arrAt_eq_of_cover 4 (secondProduct (V c main_v27) (V c main_v16) (V c main_v28) (V c main_arg4))
    (fun t _ => flushed_eq V c t) cover

end Cert.KernelIdeal.GcnR1

end
-- ==== Proof.KernelValue.lean ====
/-
  The idealized kernel program's result as one function of its six arguments.

  From the edge list the program forms the source node s(e) and target node t(e) of every edge, the self loops appended;
  the degree of a node (how many edges target it); d = the reciprocal square root of the degree where it is positive and
  0 elsewhere; and D, d repeated over the 64 channels. An AGGREGATION of node rows h sends row s(e) of h along every
  edge e and adds what arrives at each target (a negative source word counts from the end, a word out of range is
  clamped; an edge whose target word is out of range is dropped). The result is

      aggregate( secondProduct( aggregate( (X·W1)⊙D ), D, b1, W2 ) ) ⊙ D + b2

  where the two matrix-product regions supply (X·W1)⊙D and secondProduct (the cut at zero of aggregate⊙D + b1, times W2,
  scaled by D).
-/
import proofs.«179716_j10170482556975_2_alg».proof.Proof.Gen.KernelIdeal.Frame
import proofs.«179716_j10170482556975_2_alg».proof.Proof.Region0
import proofs.«179716_j10170482556975_2_alg».proof.Proof.Region1
import Idealize.ShloMosaic.Lib.StableHlo.Run
import Idealize.ShloMosaic.PureOps.Ideal

set_option maxRecDepth 16384
-- reading a stretch of a dozen or more host operations at one buffer exceeds the default budget
set_option maxHeartbeats 4000000

noncomputable section

namespace Cert.KernelIdeal.GcnValue

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## The host stretches as pure functions (at any float instance) -/

/-- s(e): the first row of the edge list, then the nodes themselves (the self loops). -/
def srcNodes (ei : IVec S2x1600000 32) : IVec S1650000 32 :=
  concatenate S1650000 0 [⟨S1600000, shapeCast _ (extractStridedSlice S1x1600000 ![0, 0] ei slices_S2x1600000_S1x1600000_0_0) shapeCasts_S1x1600000_S1600000⟩,
    ⟨S50000, iotaInDim S50000 32 0⟩] concatenates_S1600000_S50000_S1650000_d0

/-- t(e): the second row of the edge list, then the nodes themselves. -/
def tgtNodes (ei : IVec S2x1600000 32) : IVec S1650000 32 :=
  concatenate S1650000 0 [⟨S1600000, shapeCast _ (extractStridedSlice S1x1600000 ![1, 0] ei slices_S2x1600000_S1x1600000_1_0) shapeCasts_S1x1600000_S1600000⟩,
    ⟨S50000, iotaInDim S50000 32 0⟩] concatenates_S1600000_S50000_S1650000_d0

/-- The source words a gather reads: a negative word counts from the end. -/
def srcWords (s : IVec S1650000 32) : IVec S1650000x1 32 :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- The target words a sum reads: as they are. -/
def tgtWords (d : IVec S1650000 32) : IVec S1650000x1 32 :=
  broadcastInDim S1650000x1 ![0] bcast_S1650000_S1650000x1_0 d

/-- Send row s(e) of h along every edge and add what arrives at each target. -/
def aggregate (h : FVec F S50000x64 .f32) (s d : IVec S1650000 32) : FVec F S50000x64 .f32 :=
  Host.scatterAdd scatter_S50000x64_S1650000x1_S1650000x64_1_0_0_1
    (broadcastInDim S50000x64 ![] bcast_S_S50000x64 (constant (F := F) S_ .f32 0x00000000#32)) (tgtWords d)
    (Host.gather gather_S50000x64_S1650000x1_S1650000x64_1_0_n_n_0_1_164 h (srcWords s))

/-- A bias per channel, repeated over the nodes. -/
def biasRows (b : FVec F S64 .f32) : FVec F S50000x64 .f32 :=
  broadcastInDim S50000x64 ![0, 1] bcast_S1x64_S50000x64_0_1 (broadcastInDim S1x64 ![1] bcast_S64_S1x64_1 b)

/-- The degree of every node: one added per edge that targets it. -/
def degree (ei : IVec S2x1600000 32) : FVec F S50000 .f32 :=
  Host.scatterAdd scatter_S50000_S1650000x1_S1650000_n_0_0_1
    (broadcastInDim S50000 ![] bcast_S_S50000 (constant (F := F) S_ .f32 0x00000000#32)) (tgtWords (tgtNodes ei))
    (broadcastInDim S1650000 ![] bcast_S_S1650000 (constant (F := F) S_ .f32 0x3F800000#32))

/-- d: the reciprocal square root of the degree where it is positive, 0 elsewhere. -/
def dinv (ei : IVec S2x1600000 32) : FVec F S50000 .f32 :=
  select (cmpf (F := F) .ogt (degree ei) (broadcastInDim S50000 ![] bcast_S_S50000 (constant (F := F) S_ .f32 0x00000000#32)))
    (Host.rsqrt (degree ei))
    (broadcastInDim S50000 ![] bcast_S_S50000 (id (constant (F := F) S_ .f32 0x00000000#32)))

/-- D: d repeated over the 64 channels. -/
def dinvRows (ei : IVec S2x1600000 32) : FVec F S50000x64 .f32 :=
  broadcastInDim S50000x64 ![0, 1] bcast_S50000x1_S50000x64_0_1 (broadcastInDim S50000x1 ![0] bcast_S50000_S50000x1_0 (dinv ei))

variable (m : (ℓ : Loc nD τ sig) → Buf (Elt F) ℓ) (ρ : Dev nD → PrngReg)

/-! ## The last stretch, the middle stretch and the first three, each read at the buffers the next segment needs -/

theorem tail_result (c : Dev nD) :
    W7 m ρ c (Proc.devRef .tc main_v43)
      = addf (mulf (aggregate (W6 m ρ c (Proc.devRef .tc main_v29)) (W6 m ρ c (Proc.devRef .tc main_v5)) (W6 m ρ c (Proc.devRef .tc main_v6)))
            (W6 m ρ c (Proc.devRef .tc main_v16))) (biasRows (W6 m ρ c (Proc.devRef .tc main_arg5))) := by
  dsimp only [W7]
  after_results <;> try rfl

theorem mid_v27 (c : Dev nD) :
    W5 m ρ c (Proc.devRef .tc main_v27)
      = aggregate (W4 m ρ c (Proc.devRef .tc main_v17)) (W4 m ρ c (Proc.devRef .tc main_v5)) (W4 m ρ c (Proc.devRef .tc main_v6)) := by
  dsimp only [W5]
  after_results <;> try rfl

theorem mid_v28 (c : Dev nD) :
    W5 m ρ c (Proc.devRef .tc main_v28) = shapeCast S1x64 (W4 m ρ c (Proc.devRef .tc main_arg3)) shapeCasts_S64_S1x64 := by
  dsimp only [W5]
  after_results <;> try rfl

theorem head_v16 (c : Dev nD) :
    W3 m ρ c (Proc.devRef .tc main_v16)
      = broadcastInDim S50000x64 ![0, 1] bcast_S50000x1_S50000x64_0_1
          (broadcastInDim S50000x1 ![0] bcast_S50000_S50000x1_0 (W2 m ρ c (Proc.devRef .tc main_v14))) := by
  dsimp only [W3]
  after_results <;> try rfl

theorem head_v12 (c : Dev nD) :
    W1 m ρ c (Proc.devRef .tc main_v12)
      = cmpf (F := F) .ogt (degree (m ((c : Thread nD τ).loc main_arg1)))
          (broadcastInDim S50000 ![] bcast_S_S50000 (constant (F := F) S_ .f32 0x00000000#32)) := by
  dsimp only [W1]
  after_results <;> try rfl

theorem head_v13 (c : Dev nD) :
    W1 m ρ c (Proc.devRef .tc main_v13) = Host.rsqrt (degree (m ((c : Thread nD τ).loc main_arg1))) := by
  dsimp only [W1]
  after_results <;> try rfl

theorem head_cst2 (c : Dev nD) :
    W1 m ρ c (Proc.devRef .tc main_cst_2) = constant (F := F) S_ .f32 0x00000000#32 := by
  dsimp only [W1]
  after_results <;> try rfl

theorem head_v14 (c : Dev nD) :
    W2 m ρ c (Proc.devRef .tc main_v14) = dinv (m ((c : Thread nD τ).loc main_arg1)) := by
  dsimp only [W2]
  after_results <;> try rfl

theorem head_v5 (c : Dev nD) :
    W1 m ρ c (Proc.devRef .tc main_v5) = srcNodes (m ((c : Thread nD τ).loc main_arg1)) := by
  dsimp only [W1]
  after_results <;> try rfl

theorem head_v6 (c : Dev nD) :
    W1 m ρ c (Proc.devRef .tc main_v6) = tgtNodes (m ((c : Thread nD τ).loc main_arg1)) := by
  dsimp only [W1]
  after_results <;> try rfl

/-! ## What each segment leaves untouched

A host stretch writes only its own results, and a region only its output array; every other buffer a later segment reads
is carried across unchanged. -/

/-- A buffer no operation of the stretch writes holds after it what it held before. -/
local macro "stretch_keeps " W:ident : tactic => `(tactic| (dsimp only [$W:ident]; after_results <;> try rfl))

theorem keepW1_arg0 (c : Dev nD) : W1 m ρ c (Proc.devRef .tc main_arg0) = W0 m ρ c (Proc.devRef .tc main_arg0) := by stretch_keeps W1
theorem keepW1_arg2 (c : Dev nD) : W1 m ρ c (Proc.devRef .tc main_arg2) = W0 m ρ c (Proc.devRef .tc main_arg2) := by stretch_keeps W1
theorem keepW1_arg3 (c : Dev nD) : W1 m ρ c (Proc.devRef .tc main_arg3) = W0 m ρ c (Proc.devRef .tc main_arg3) := by stretch_keeps W1
theorem keepW1_arg4 (c : Dev nD) : W1 m ρ c (Proc.devRef .tc main_arg4) = W0 m ρ c (Proc.devRef .tc main_arg4) := by stretch_keeps W1
theorem keepW1_arg5 (c : Dev nD) : W1 m ρ c (Proc.devRef .tc main_arg5) = W0 m ρ c (Proc.devRef .tc main_arg5) := by stretch_keeps W1
theorem keepW2_v5 (c : Dev nD) : W2 m ρ c (Proc.devRef .tc main_v5) = W1 m ρ c (Proc.devRef .tc main_v5) := by stretch_keeps W2
theorem keepW2_v6 (c : Dev nD) : W2 m ρ c (Proc.devRef .tc main_v6) = W1 m ρ c (Proc.devRef .tc main_v6) := by stretch_keeps W2
theorem keepW2_arg0 (c : Dev nD) : W2 m ρ c (Proc.devRef .tc main_arg0) = W1 m ρ c (Proc.devRef .tc main_arg0) := by stretch_keeps W2
theorem keepW2_arg2 (c : Dev nD) : W2 m ρ c (Proc.devRef .tc main_arg2) = W1 m ρ c (Proc.devRef .tc main_arg2) := by stretch_keeps W2
theorem keepW2_arg3 (c : Dev nD) : W2 m ρ c (Proc.devRef .tc main_arg3) = W1 m ρ c (Proc.devRef .tc main_arg3) := by stretch_keeps W2
theorem keepW2_arg4 (c : Dev nD) : W2 m ρ c (Proc.devRef .tc main_arg4) = W1 m ρ c (Proc.devRef .tc main_arg4) := by stretch_keeps W2
theorem keepW2_arg5 (c : Dev nD) : W2 m ρ c (Proc.devRef .tc main_arg5) = W1 m ρ c (Proc.devRef .tc main_arg5) := by stretch_keeps W2
theorem keepW3_v5 (c : Dev nD) : W3 m ρ c (Proc.devRef .tc main_v5) = W2 m ρ c (Proc.devRef .tc main_v5) := by stretch_keeps W3
theorem keepW3_v6 (c : Dev nD) : W3 m ρ c (Proc.devRef .tc main_v6) = W2 m ρ c (Proc.devRef .tc main_v6) := by stretch_keeps W3
theorem keepW3_arg0 (c : Dev nD) : W3 m ρ c (Proc.devRef .tc main_arg0) = W2 m ρ c (Proc.devRef .tc main_arg0) := by stretch_keeps W3
theorem keepW3_arg2 (c : Dev nD) : W3 m ρ c (Proc.devRef .tc main_arg2) = W2 m ρ c (Proc.devRef .tc main_arg2) := by stretch_keeps W3
theorem keepW3_arg3 (c : Dev nD) : W3 m ρ c (Proc.devRef .tc main_arg3) = W2 m ρ c (Proc.devRef .tc main_arg3) := by stretch_keeps W3
theorem keepW3_arg4 (c : Dev nD) : W3 m ρ c (Proc.devRef .tc main_arg4) = W2 m ρ c (Proc.devRef .tc main_arg4) := by stretch_keeps W3
theorem keepW3_arg5 (c : Dev nD) : W3 m ρ c (Proc.devRef .tc main_arg5) = W2 m ρ c (Proc.devRef .tc main_arg5) := by stretch_keeps W3
theorem keepW5_v5 (c : Dev nD) : W5 m ρ c (Proc.devRef .tc main_v5) = W4 m ρ c (Proc.devRef .tc main_v5) := by stretch_keeps W5
theorem keepW5_v6 (c : Dev nD) : W5 m ρ c (Proc.devRef .tc main_v6) = W4 m ρ c (Proc.devRef .tc main_v6) := by stretch_keeps W5
theorem keepW5_v16 (c : Dev nD) : W5 m ρ c (Proc.devRef .tc main_v16) = W4 m ρ c (Proc.devRef .tc main_v16) := by stretch_keeps W5
theorem keepW5_arg4 (c : Dev nD) : W5 m ρ c (Proc.devRef .tc main_arg4) = W4 m ρ c (Proc.devRef .tc main_arg4) := by stretch_keeps W5
theorem keepW5_arg5 (c : Dev nD) : W5 m ρ c (Proc.devRef .tc main_arg5) = W4 m ρ c (Proc.devRef .tc main_arg5) := by stretch_keeps W5

/-- Across the first region: a buffer that is none of its four arrays, -/
theorem keepW4_v5 (c : Dev nD) : W4 m ρ c (Proc.devRef .tc main_v5) = W3 m ρ c (Proc.devRef .tc main_v5) := W4_of_ne m ρ c main_v5 (by decide)
theorem keepW4_v6 (c : Dev nD) : W4 m ρ c (Proc.devRef .tc main_v6) = W3 m ρ c (Proc.devRef .tc main_v6) := W4_of_ne m ρ c main_v6 (by decide)
theorem keepW4_arg3 (c : Dev nD) : W4 m ρ c (Proc.devRef .tc main_arg3) = W3 m ρ c (Proc.devRef .tc main_arg3) := W4_of_ne m ρ c main_arg3 (by decide)
theorem keepW4_arg4 (c : Dev nD) : W4 m ρ c (Proc.devRef .tc main_arg4) = W3 m ρ c (Proc.devRef .tc main_arg4) := W4_of_ne m ρ c main_arg4 (by decide)
theorem keepW4_arg5 (c : Dev nD) : W4 m ρ c (Proc.devRef .tc main_arg5) = W3 m ρ c (Proc.devRef .tc main_arg5) := W4_of_ne m ρ c main_arg5 (by decide)
/-- and D, which it only reads. -/
theorem keepW4_v16 (c : Dev nD) : W4 m ρ c (Proc.devRef .tc main_v16) = W3 m ρ c (Proc.devRef .tc main_v16) :=
  (W4_arr m ρ c 2).trans (((dat0 (V3 m ρ) c).arrAt_in 2 rfl _).trans (A_eq0 (V3 m ρ) c 2))

/-- Across the second region likewise. -/
theorem keepW6_v5 (c : Dev nD) : W6 m ρ c (Proc.devRef .tc main_v5) = W5 m ρ c (Proc.devRef .tc main_v5) := W6_of_ne m ρ c main_v5 (by decide)
theorem keepW6_v6 (c : Dev nD) : W6 m ρ c (Proc.devRef .tc main_v6) = W5 m ρ c (Proc.devRef .tc main_v6) := W6_of_ne m ρ c main_v6 (by decide)
theorem keepW6_arg5 (c : Dev nD) : W6 m ρ c (Proc.devRef .tc main_arg5) = W5 m ρ c (Proc.devRef .tc main_arg5) := W6_of_ne m ρ c main_arg5 (by decide)
theorem keepW6_v16 (c : Dev nD) : W6 m ρ c (Proc.devRef .tc main_v16) = W5 m ρ c (Proc.devRef .tc main_v16) :=
  (W6_arr m ρ c 1).trans (((dat1 (V5 m ρ) c).arrAt_in 1 rfl _).trans (A_eq1 (V5 m ρ) c 1))

/-! ## The contents at each boundary as functions of the arguments (at any float instance) -/

theorem at3_arg0 (c : Dev nD) : W3 m ρ c (Proc.devRef .tc main_arg0) = m ((c : Thread nD τ).loc main_arg0) :=
  (keepW3_arg0 m ρ c).trans ((keepW2_arg0 m ρ c).trans (keepW1_arg0 m ρ c))
theorem at3_arg2 (c : Dev nD) : W3 m ρ c (Proc.devRef .tc main_arg2) = m ((c : Thread nD τ).loc main_arg2) :=
  (keepW3_arg2 m ρ c).trans ((keepW2_arg2 m ρ c).trans (keepW1_arg2 m ρ c))
theorem at3_arg3 (c : Dev nD) : W3 m ρ c (Proc.devRef .tc main_arg3) = m ((c : Thread nD τ).loc main_arg3) :=
  (keepW3_arg3 m ρ c).trans ((keepW2_arg3 m ρ c).trans (keepW1_arg3 m ρ c))
theorem at3_arg4 (c : Dev nD) : W3 m ρ c (Proc.devRef .tc main_arg4) = m ((c : Thread nD τ).loc main_arg4) :=
  (keepW3_arg4 m ρ c).trans ((keepW2_arg4 m ρ c).trans (keepW1_arg4 m ρ c))
theorem at3_arg5 (c : Dev nD) : W3 m ρ c (Proc.devRef .tc main_arg5) = m ((c : Thread nD τ).loc main_arg5) :=
  (keepW3_arg5 m ρ c).trans ((keepW2_arg5 m ρ c).trans (keepW1_arg5 m ρ c))

theorem at3_v5 (c : Dev nD) : W3 m ρ c (Proc.devRef .tc main_v5) = srcNodes (m ((c : Thread nD τ).loc main_arg1)) :=
  (keepW3_v5 m ρ c).trans ((keepW2_v5 m ρ c).trans (head_v5 m ρ c))
theorem at3_v6 (c : Dev nD) : W3 m ρ c (Proc.devRef .tc main_v6) = tgtNodes (m ((c : Thread nD τ).loc main_arg1)) :=
  (keepW3_v6 m ρ c).trans ((keepW2_v6 m ρ c).trans (head_v6 m ρ c))

/-- D is what the first three stretches leave in the buffer both regions read it from. -/
theorem at3_v16 (c : Dev nD) :
    W3 m ρ c (Proc.devRef .tc main_v16) = dinvRows (m ((c : Thread nD τ).loc main_arg1)) := by
  rw [head_v16, head_v14]
  rfl

theorem at5_v16 (c : Dev nD) :
    W5 m ρ c (Proc.devRef .tc main_v16) = dinvRows (m ((c : Thread nD τ).loc main_arg1)) :=
  (keepW5_v16 m ρ c).trans ((keepW4_v16 m ρ c).trans (at3_v16 m ρ c))
theorem at5_arg4 (c : Dev nD) : W5 m ρ c (Proc.devRef .tc main_arg4) = m ((c : Thread nD τ).loc main_arg4) :=
  (keepW5_arg4 m ρ c).trans ((keepW4_arg4 m ρ c).trans (at3_arg4 m ρ c))

/-- The bias of layer one, laid out as one row for the second region. -/
theorem at5_v28 (c : Dev nD) :
    W5 m ρ c (Proc.devRef .tc main_v28) = shapeCast S1x64 (m ((c : Thread nD τ).loc main_arg3)) shapeCasts_S64_S1x64 := by
  rw [mid_v28, keepW4_arg3, at3_arg3]

/-- Layer one's sums: the first region's output aggregated. -/
theorem at5_v27 (c : Dev nD) :
    W5 m ρ c (Proc.devRef .tc main_v27)
      = aggregate (W4 m ρ c (Proc.devRef .tc main_v17)) (srcNodes (m ((c : Thread nD τ).loc main_arg1)))
          (tgtNodes (m ((c : Thread nD τ).loc main_arg1))) := by
  rw [mid_v27, keepW4_v5, keepW4_v6, at3_v5, at3_v6]

/-- The result: the second region's output aggregated, scaled by D, plus the bias of layer two. -/
theorem at7_result (c : Dev nD) :
    W7 m ρ c (Proc.devRef .tc main_v43)
      = addf (mulf (aggregate (W6 m ρ c (Proc.devRef .tc main_v29)) (srcNodes (m ((c : Thread nD τ).loc main_arg1)))
            (tgtNodes (m ((c : Thread nD τ).loc main_arg1)))) (dinvRows (m ((c : Thread nD τ).loc main_arg1))))
          (biasRows (m ((c : Thread nD τ).loc main_arg5))) := by
  rw [tail_result, keepW6_v5, keepW6_v6, keepW6_v16, keepW6_arg5, keepW5_v5, keepW5_v6, at5_v16, keepW5_arg5,
    keepW4_v5, keepW4_v6, keepW4_arg5, at3_v5, at3_v6, at3_arg5]

/-! ## The two regions' output arrays, at the ideal instance -/

section AtIdeal
variable (m : (ℓ : Loc nD τ sig) → Buf (Elt Ideal) ℓ) (ρ : Dev nD → PrngReg)

theorem region0_out (c : Dev nD) :
    W4 m ρ c (Proc.devRef .tc main_v17)
      = GcnR0.scaledProduct (W3 m ρ c (Proc.devRef .tc main_arg0)) (W3 m ρ c (Proc.devRef .tc main_arg2))
          (W3 m ρ c (Proc.devRef .tc main_v16)) :=
  (W4_arr m ρ c 3).trans (GcnR0.final (V3 m ρ) c)

theorem region1_out (c : Dev nD) :
    W6 m ρ c (Proc.devRef .tc main_v29)
      = GcnR1.secondProduct (W5 m ρ c (Proc.devRef .tc main_v27)) (W5 m ρ c (Proc.devRef .tc main_v16))
          (W5 m ρ c (Proc.devRef .tc main_v28)) (W5 m ρ c (Proc.devRef .tc main_arg4)) :=
  (W6_arr m ρ c 4).trans (GcnR1.final (V5 m ρ) c)

/-- The first region's output as a function of the arguments. -/
theorem region0_value (c : Dev nD) :
    W4 m ρ c (Proc.devRef .tc main_v17)
      = GcnR0.scaledProduct (m ((c : Thread nD τ).loc main_arg0)) (m ((c : Thread nD τ).loc main_arg2))
          (dinvRows (F := Ideal) (m ((c : Thread nD τ).loc main_arg1))) := by
  rw [region0_out, at3_arg0, at3_arg2, at3_v16]

/-- The second region's output as a function of the arguments. -/
theorem region1_value (c : Dev nD) :
    W6 m ρ c (Proc.devRef .tc main_v29)
      = GcnR1.secondProduct
          (aggregate (F := Ideal) (GcnR0.scaledProduct (m ((c : Thread nD τ).loc main_arg0)) (m ((c : Thread nD τ).loc main_arg2))
              (dinvRows (F := Ideal) (m ((c : Thread nD τ).loc main_arg1))))
            (srcNodes (m ((c : Thread nD τ).loc main_arg1))) (tgtNodes (m ((c : Thread nD τ).loc main_arg1))))
          (dinvRows (F := Ideal) (m ((c : Thread nD τ).loc main_arg1)))
          (shapeCast S1x64 (m ((c : Thread nD τ).loc main_arg3)) shapeCasts_S64_S1x64)
          (m ((c : Thread nD τ).loc main_arg4)) := by
  rw [region1_out, at5_v27, at5_v16, at5_v28, at5_arg4, region0_value]

end AtIdeal

end Cert.KernelIdeal.GcnValue

end
-- ==== Proof.EdgeIndex.lean ====
/-
  How the edge-indexed host operations of a graph convolution read their index arrays.

  Nodes are rows 0 … 49999, edges (with one self loop per node appended) are rows 0 … 1649999, and an index array
  has shape [1650000, 1]. Three operations read such an array:
  * the row gather  [50000, 64] → [1650000, 64]: edge e reads the node row whose number is the index word of e,
    taken as a signed integer and clamped into 0 … 49999;
  * the element gather  [50000] → [1650000]: the same, for one number per node;
  * the row scatter  [1650000, 64] → [50000, 64]: edge e's row lands on the node row whose number is the index word
    of e taken as a signed integer, NOT clamped; an edge whose word is outside 0 … 49999 lands nowhere.
  So an edge that lands on node v has index word exactly v, and a gather of that same word reads node v.
-/
import Idealize.ShloMosaic.Lib.ValueIdx
import Idealize.ShloMosaic.PureOps.Ideal

noncomputable section

namespace Cert.Gcn

open Idealize.ShloMosaic Idealize.ShloMosaic.ValueIdx

/-- Node features, edge features, per-edge index words, one number per node, one number per edge. -/
abbrev SN : Shape := ⟨2, ![50000, 64]⟩
abbrev SE : Shape := ⟨2, ![1650000, 64]⟩
abbrev SI : Shape := ⟨2, ![1650000, 1]⟩
abbrev S1N : Shape := ⟨1, ![50000]⟩
abbrev S1E : Shape := ⟨1, ![1650000]⟩

/-- The index word of edge e. -/
abbrev wordAt (e : Fin 1650000) : SI.Idx := ix2 e (0 : Fin 1)

/-- The row scatter's dimension numbers: update axis 1 is the window, operand axis 0 is inserted and indexed. -/
abbrev rowScatter (wf : ScatterDims.WF SN SI SE [1] [0] [0] 1) : ScatterDims SN SI SE where
  updateWindowDims := [1]
  insertedWindowDims := [0]
  scatterDimsToOperandDims := [0]
  indexVectorDim := 1
  wf := wf

/-- The row gather's dimension numbers: result axis 1 is the offset, operand axis 0 is collapsed and indexed. -/
abbrev rowGather (wf : GatherDims.WF SN SI SE [1] [0] [] [0] [] 1 ![1, 64]) : GatherDims SN SI SE where
  offsetDims := [1]
  collapsedSliceDims := [0]
  operandBatchingDims := []
  startIndicesBatchingDims := []
  startIndexMap := [0]
  indexVectorDim := 1
  sliceSizes := ![1, 64]
  wf := wf

/-- The element gather's dimension numbers. -/
abbrev eltGather (wf : GatherDims.WF S1N SI S1E [] [0] [] [0] [] 1 ![1]) : GatherDims S1N SI S1E where
  offsetDims := []
  collapsedSliceDims := [0]
  operandBatchingDims := []
  startIndicesBatchingDims := []
  startIndexMap := [0]
  indexVectorDim := 1
  sliceSizes := ![1]
  wf := wf

variable {w : Nat}

/-- The row scatter reads edge (j 0)'s index word for operand axis 0. -/
theorem rowScatter_siIdx (wf) (j : SE.Idx) (c : Fin (rowScatter wf).scatterDimsToOperandDims.length) :
    (rowScatter wf).siIdx j c = wordAt (j 0) := by
  funext b
  refine Fin.ext ?_
  match b with
  | ⟨0, _⟩ => rfl
  | ⟨1, _⟩ =>
    have : c.val = 0 := by have := c.isLt; simpa using this
    simp [ScatterDims.siIdx, this]

theorem rowScatter_start0 (wf) (j : SE.Idx) (idx : IVec SI w) :
    (rowScatter wf).start j idx 0 = (idx (wordAt (j 0))).toInt := by
  unfold ScatterDims.start
  rw [dif_pos (show (0 : Fin 2) ∈ (rowScatter wf).scatterDimsToOperandDims from List.mem_singleton.mpr rfl),
    rowScatter_siIdx]

theorem rowScatter_window0 (wf) (j : SE.Idx) : (rowScatter wf).window j 0 = 0 := by
  unfold ScatterDims.window
  rw [dif_neg]
  simp [ScatterDims.sKept, Shape.kept]

/-- An edge row that lands on node row i has index word exactly (i 0), as a signed integer. -/
theorem word_of_lands (wf) (j : SE.Idx) (idx : IVec SI w) (i : SN.Idx)
    (h : (rowScatter wf).resultIdx? j idx = some i) : (idx (wordAt (j 0))).toInt = ((i 0).val : ℤ) := by
  unfold ScatterDims.resultIdx? at h
  split at h
  · rename_i hin
    have hi := Option.some.inj h
    have h0 := hin 0
    rw [rowScatter_start0, rowScatter_window0] at h0
    have : (i 0).val = ((rowScatter wf).start j idx 0 + ((rowScatter wf).window j 0 : ℕ)).toNat := by
      rw [← hi]
    rw [rowScatter_start0, rowScatter_window0] at this
    omega
  · exact absurd h (by simp)

/-- The node row a word names when it is clamped: the word as a signed integer, cut to 0 … 49999. -/
def clampRow (x : BitVec w) : Fin 50000 := ⟨min x.toInt.toNat 49999, by omega⟩

theorem rowGather_siIdx (wf) (j : SE.Idx) (c : Fin (rowGather wf).startIndexMap.length) :
    (rowGather wf).siIdx j c = wordAt (j 0) := by
  funext b
  refine Fin.ext ?_
  match b with
  | ⟨0, _⟩ => rfl
  | ⟨1, _⟩ =>
    have : c.val = 0 := by have := c.isLt; simpa using this
    simp [GatherDims.siIdx, this]

/-- The row gather reads, for edge row j, the node row its clamped index word names, at j's channel. -/
theorem rowGather_operandIdx (wf) (j : SE.Idx) (idx : IVec SI w) :
    (rowGather wf).operandIdx j idx = ix2 (clampRow (idx (wordAt (j 0)))) (j 1) := by
  have h0 : (rowGather wf).start j idx (0 : Fin 2) + (rowGather wf).batchCoord j (0 : Fin 2)
      + (rowGather wf).offCoord j (0 : Fin 2) = (clampRow (idx (wordAt (j 0)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGather wf).startIndexMap from List.mem_singleton.mpr rfl), rowGather_siIdx]
    rfl
  have h1 : (rowGather wf).start j idx (1 : Fin 2) + (rowGather wf).batchCoord j (1 : Fin 2)
      + (rowGather wf).offCoord j (1 : Fin 2) = (j 1).val := by
    rw [GatherDims.batchCoord_eq_zero _ _ _ List.not_mem_nil, Nat.add_zero]
    unfold GatherDims.start
    rw [dif_neg (by simp), Nat.zero_add]
    unfold GatherDims.offCoord
    rw [dif_pos (by simp [GatherDims.sKept, Shape.kept])]
    simp [GatherDims.sKept, Shape.kept]
    exact congrArg (fun a => (j a : ℕ)) (List.getElem_singleton _)
  funext a
  refine Fin.ext ?_
  match a with
  | ⟨0, _⟩ => exact h0
  | ⟨1, _⟩ => exact h1

theorem eltGather_siIdx (wf) (e : S1E.Idx) (c : Fin (eltGather wf).startIndexMap.length) :
    (eltGather wf).siIdx e c = wordAt (e 0) := by
  funext b
  refine Fin.ext ?_
  match b with
  | ⟨0, _⟩ => rfl
  | ⟨1, _⟩ =>
    have : c.val = 0 := by have := c.isLt; simpa using this
    simp [GatherDims.siIdx, this]

/-- The element gather reads, for edge e, the node its clamped index word names. -/
theorem eltGather_operandIdx (wf) (e : S1E.Idx) (idx : IVec SI w) :
    (eltGather wf).operandIdx e idx = ix1 (clampRow (idx (wordAt (e 0)))) := by
  funext a
  obtain rfl : a = 0 := Subsingleton.elim _ _
  refine Fin.ext ?_
  show (eltGather wf).start e idx 0 + (eltGather wf).batchCoord e 0 + (eltGather wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGather wf).startIndexMap from List.mem_singleton.mpr rfl), eltGather_siIdx]
  rfl

/-- A word that names an in-range node v as a signed integer is clamped to v. -/
theorem clampRow_of_toInt (x : BitVec w) (v : Fin 50000) (h : x.toInt = (v.val : ℤ)) : clampRow x = v := by
  refine Fin.ext ?_
  show min x.toInt.toNat 49999 = v.val
  have := v.isLt
  rw [h]; omega

end Cert.Gcn

end
-- ==== Proof.LibERealScale.lean ====
/-
  A finite nonnegative factor moves across a finite sum of extended reals.

  The extended reals are not a semiring: x * (a + b) = x * a + x * b can fail when a and b are infinities of opposite
  signs. It does hold whenever x is nonnegative and finite, for ALL a and b; so such an x distributes over any finite
  sum, and scaling the left factor of every product in a contraction by x scales the whole contraction by x. This is
  what lets a kernel fold a positive dyadic scale (1/8, 1/16, ...) into one operand of a matrix product while its
  reference scales the product, with no finiteness assumption on the data.
-/
import Idealize.ShloMosaic.PureOps.Ideal

namespace Cert.LibERealScale

/-- The product with a finite nonnegative constant distributes over any finite sum of extended reals. -/
theorem mul_sum_of_nonneg {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Scaling the left factor of every product by a finite nonnegative constant scales the contraction by it. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [mul_comm _ c, mul_sum_of_nonneg s _ h0 ht]
  exact Finset.sum_congr rfl fun i _ => by rw [mul_comm (a i) c, mul_assoc]

end Cert.LibERealScale
-- ==== Proof.LayerIdentity.lean ====
/-
  One graph-convolution layer, two ways, over the extended reals.

  Write d(v) for the inverse square root of node v's degree (0 where the degree is not positive), h for the node
  features, s(e) and t(e) for the source and target node of edge e. The symmetric normalisation of the layer is

      out(v, c) = Σ over edges e with t(e) = v of  h(s(e), c) · ( d(s(e)) · d(t(e)) ).

  Since t(e) = v on every edge of that sum, the factor d(t(e)) is the constant d(v) there, and the same number is

      d(v) · Σ over edges e with t(e) = v of  ( h(s(e), c) · d(s(e)) ):

  scale the rows by d before sending them along the edges, add them up at the targets, scale the sums by d again. The
  step that takes the constant out of the sum is distributivity, which on the extended reals needs the constant to be
  finite and nonnegative; d(v) is: it is 0, or the reciprocal square root of a positive number, and that is a positive
  real (of +∞ it is 0). Nothing is assumed of h.

  An edge whose target word is outside 0 … 49999 is dropped by the sum on both sides alike, and an edge that lands on v
  has target word exactly v, so wrapping a negative word or clamping it (which the gather of d(t(e)) does and the sum does
  not) changes nothing on the edges that count.
-/
import proofs.«179716_j10170482556975_2_alg».proof.Proof.EdgeIndex
import proofs.«179716_j10170482556975_2_alg».proof.Proof.LibERealScale
import Idealize.ShloMosaic.Lib.ValueIdx
import Idealize.ShloMosaic.Lib.IdealHost
import Idealize.ShloMosaic.PureOps.Ideal

noncomputable section

namespace Cert.Gcn

open Idealize.ShloMosaic Idealize.ShloMosaic.ValueIdx

/-- The reciprocal square root of a positive extended real is a nonnegative real. -/
theorem rsqrt_nonneg_finite (x : EReal) (hx : 0 < x) : 0 ≤ Ideal.rsqrt x ∧ Ideal.rsqrt x ≠ ⊤ := by
  induction x using EReal.rec with
  | bot => exact absurd hx (by simp)
  | top => simp
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- d(v): the reciprocal square root of the degree where it is positive, 0 elsewhere, is finite and nonnegative. -/
theorem dinv_fin (deg z0 zb : FVec Ideal S1N .f32) (h0 : ∀ v, z0 v = 0) (hb : ∀ v, zb v = 0) (v : S1N.Idx) :
    0 ≤ select (cmpf .ogt deg z0) (Host.rsqrt deg) zb v ∧ select (cmpf .ogt deg z0) (Host.rsqrt deg) zb v ≠ ⊤ := by
  rw [select_apply, cmpf_apply]
  show 0 ≤ Scalar.select (Ideal.cmp .ogt (deg v) (z0 v)) (Ideal.rsqrt (deg v)) (zb v)
    ∧ Scalar.select (Ideal.cmp .ogt (deg v) (z0 v)) (Ideal.rsqrt (deg v)) (zb v) ≠ ⊤
  rw [h0, hb]
  by_cases h : (0 : EReal) < deg v
  · have hc : Ideal.cmp .ogt (deg v) 0 = 1#1 := by simp [Ideal.cmp, h]
    rw [hc, select_one]; exact rsqrt_nonneg_finite _ h
  · have hc : Ideal.cmp .ogt (deg v) 0 = 0#1 := by simp [Ideal.cmp, h]
    rw [hc, select_zero]; exact ⟨le_refl _, EReal.zero_ne_top⟩

/-- THE LAYER IDENTITY. h: node features; D: d broadcast over the channels; z: the zero array the sums start from;
    src: the source words; tgt: the target words as the sum reads them; tgtW: the target words as the gather of d reads
    them (equal to tgt wherever tgt is nonnegative); NB: d(s(e)) · d(t(e)) broadcast over the channels. -/
theorem layer (wfS wfG) (h D z : FVec Ideal SN .f32) (NB : FVec Ideal SE .f32) (dinv : FVec Ideal S1N .f32)
    (src tgt tgtW : IVec SI 32)
    (hz : ∀ i, z i = 0)
    (hD : ∀ i : SN.Idx, D i = dinv (ix1 (i 0)))
    (hfin : ∀ v, 0 ≤ dinv v ∧ dinv v ≠ ⊤)
    (hwrap : ∀ e : Fin 1650000, 0 ≤ (tgt (wordAt e)).toInt → tgtW (wordAt e) = tgt (wordAt e))
    (hNB : ∀ j : SE.Idx, NB j = dinv (ix1 (clampRow (src (wordAt (j 0))))) * dinv (ix1 (clampRow (tgtW (wordAt (j 0)))))) :
    mulf (Host.scatterAdd (rowScatter wfS) z tgt (Host.gather (rowGather wfG) (mulf h D) src)) D
      = Host.scatterAdd (rowScatter wfS) z tgt (mulf (Host.gather (rowGather wfG) h src) NB) := by
  funext i
  rw [mulf_apply]
  simp only [Host.scatterAdd, Ideal.hostScatterAdd_def, Ideal.hostScatterAdd, hz, zero_add]
  refine (mul_comm _ _).trans ?_
  have hDi := hfin (ix1 (i 0))
  rw [← hD i] at hDi
  rw [LibERealScale.mul_sum_of_nonneg _ _ hDi.1 hDi.2]
  refine Finset.sum_congr rfl fun j hj => ?_
  have hw := word_of_lands wfS j tgt i (Finset.mem_filter.mp hj).2
  have hd : tgtW (wordAt (j 0)) = tgt (wordAt (j 0)) := hwrap _ (by rw [hw]; exact Int.natCast_nonneg _)
  have hc : clampRow (tgtW (wordAt (j 0))) = i 0 := by rw [hd]; exact clampRow_of_toInt _ _ hw
  have hnb := hNB j
  rw [hc] at hnb
  show D i * (mulf h D ((rowGather wfG).operandIdx j src)) = h ((rowGather wfG).operandIdx j src) * NB j
  rw [rowGather_operandIdx, hnb]
  generalize clampRow (src (wordAt (j 0))) = c
  show D i * (h (ix2 c (j 1)) * D (ix2 c (j 1))) = h (ix2 c (j 1)) * (dinv (ix1 c) * dinv (ix1 (i 0)))
  rw [hD i, hD (ix2 c (j 1))]
  show dinv (ix1 (i 0)) * (h (ix2 c (j 1)) * dinv (ix1 c)) = h (ix2 c (j 1)) * (dinv (ix1 c) * dinv (ix1 (i 0)))
  rw [mul_comm (dinv (ix1 (i 0))), mul_assoc]

end Cert.Gcn

end
-- ==== Proof.ReferenceSide.lean ====
/-
  The reference program's own pieces, read at an index.

  The reference scales every edge's row by d(s(e)) · d(t(e)), where both factors are gathered from d with the edge's
  source and target words (a word out of range clamped), and repeats that number over the 64 channels. It multiplies whole
  arrays on the host; at an output entry such a product is the sum over the contracted coordinate.
-/
import proofs.«179716_j10170482556975_2_alg».proof.Proof.Gen.ReferenceIdeal
import proofs.«179716_j10170482556975_2_alg».proof.Proof.EdgeIndex
import proofs.«179716_j10170482556975_2_alg».proof.Proof.LibPlainDot
import Idealize.ShloMosaic.Lib.Pipeline.Value
import Idealize.ShloMosaic.Lib.ValueIdx

noncomputable section

namespace Cert.ReferenceIdeal.GcnRef

open Cert.ReferenceIdeal Cert.ReferenceIdeal.Facts₀ Cert.ReferenceIdeal.Facts Cert.Gcn
open Idealize.ShloMosaic Idealize.ShloMosaic.ValueIdx

/-- d(s(e)) · d(t(e)), repeated over the channels (at any float instance). -/
def normRows {F : FTy → Type} [FloatOps F] (dinv : FVec F S50000 .f32) (sw tw : IVec S1650000x1 32) :
    FVec F S1650000x64 .f32 :=
  broadcastInDim S1650000x64 ![0, 1] bcast_S1650000x1_S1650000x64_0_1
    (broadcastInDim S1650000x1 ![0] bcast_S1650000_S1650000x1_0
      (mulf (Host.gather gather_S50000_S1650000x1_S1650000_n_0_n_n_0_1_1 dinv sw)
        (Host.gather gather_S50000_S1650000x1_S1650000_n_0_n_n_0_1_1 dinv tw)))

/-- The element gather at edge e: d at the node its clamped word names. -/
theorem gather1_apply (dinv : FVec Ideal S50000 .f32) (w : IVec S1650000x1 32) (e : S1650000.Idx) :
    Host.gather gather_S50000_S1650000x1_S1650000_n_0_n_n_0_1_1 dinv w e = dinv (ix1 (clampRow (w (wordAt (e 0))))) := by
  show dinv ((eltGather _).operandIdx e w) = _
  rw [eltGather_operandIdx]

theorem normRows_apply (dinv : FVec Ideal S50000 .f32) (sw tw : IVec S1650000x1 32) (j : S1650000x64.Idx) :
    normRows dinv sw tw j
      = dinv (ix1 (clampRow (sw (wordAt (j 0))))) * dinv (ix1 (clampRow (tw (wordAt (j 0))))) := by
  unfold normRows
  refine (broadcastInDim_apply _ _ _ j (ix2 (j 0) (0 : Fin 1))
    (fun a => by match a with | ⟨0, _⟩ => rfl | ⟨1, _⟩ => rfl)).trans ?_
  refine (broadcastInDim_apply _ _ _ (ix2 (j 0) (0 : Fin 1)) (ix1 (j 0))
    (fun a => by match a with | ⟨0, _⟩ => rfl)).trans ?_
  exact congrArg₂ (· * ·) (gather1_apply dinv sw (ix1 (j 0))) (gather1_apply dinv tw (ix1 (j 0)))

/-- The first layer's product X · W1 at an entry. -/
theorem dot1_apply (X : FVec Ideal S50000x128 .f32) (W : FVec Ideal S128x64 .f32) (i : S50000x64.Idx) :
    Host.dotGeneral dot_S50000x128_S128x64_S50000x64_1_0_0_1_n_n none X W i
      = ∑ k : Fin 128, X (ix2 (i 0) k) * W (ix2 k (i 1)) :=
  Cert.LibPlainDot.dotGeneral_plain 50000 128 64 none .single X W i

/-- The second layer's product at an entry. -/
theorem dot2_apply (H : FVec Ideal S50000x64 .f32) (W : FVec Ideal S64x64 .f32) (i : S50000x64.Idx) :
    Host.dotGeneral dot_S50000x64_S64x64_S50000x64_1_0_0_1_n_n none H W i
      = ∑ k : Fin 64, H (ix2 (i 0) k) * W (ix2 k (i 1)) :=
  Cert.LibPlainDot.dotGeneral_plain 50000 64 64 none .single H W i

end Cert.ReferenceIdeal.GcnRef

end
-- ==== Proof.Bridge.lean ====
/-
  The idealized kernel program and the reference compute one function of the six arguments.

  The kernel scales the node rows by D before each aggregation and the sums by D after it; the reference scales every
  edge's row by d(s(e)) · d(t(e)). By the layer identity these are one array, for each of the two layers, because d is
  finite and nonnegative. What is left is bookkeeping: a region's block products are the host's whole-array products; the
  bias reshaped to one row and repeated by the kernel body is the bias repeated over the nodes; the zero the cut compares
  with is 0; a target word that is nonnegative is its own wrap.
-/
import proofs.«179716_j10170482556975_2_alg».proof.Proof.KernelValue
import proofs.«179716_j10170482556975_2_alg».proof.Proof.LayerIdentity
import proofs.«179716_j10170482556975_2_alg».proof.Proof.ReferenceSide
import proofs.«179716_j10170482556975_2_alg».proof.Proof.ReferenceRun
import Idealize.ShloMosaic.Lib.Pipeline.Value
import Idealize.ShloMosaic.Lib.IdealHost

set_option maxRecDepth 16384
set_option maxHeartbeats 4000000

noncomputable section

namespace Cert.Proof.GcnBridge

open Cert.KernelIdeal Cert.KernelIdeal.Gen Cert.KernelIdeal.GcnValue Cert.Gcn
open Idealize.ShloMosaic Idealize.ShloMosaic.ValueIdx Idealize.ShloMosaic.TcCoe Idealize.SL.Sem

/-- The zero array the sums start from and the cut compares with. -/
abbrev zeroRows {F : FTy → Type} [FloatOps F] : FVec F S50000x64 .f32 :=
  broadcastInDim S50000x64 ![] bcast_S_S50000x64 (constant (F := F) S_ .f32 0x00000000#32)

/-! ## The result spelled with the reference's operations, at any float instance -/

section AnyInstance
variable {F : FTy → Type} [FloatOps F]

/-- One layer's sum as the reference forms it: the rows h sent along the edges, each scaled by d(s(e)) · d(t(e)),
    added at the targets. -/
def layerSum (ei : IVec S2x1600000 32) (h : FVec F S50000x64 .f32) : FVec F S50000x64 .f32 :=
  Host.scatterAdd scatter_S50000x64_S1650000x1_S1650000x64_1_0_0_1 zeroRows (tgtWords (tgtNodes ei))
    (mulf (Host.gather gather_S50000x64_S1650000x1_S1650000x64_1_0_n_n_0_1_164 h (srcWords (srcNodes ei)))
      (Cert.ReferenceIdeal.GcnRef.normRows (dinv ei) (srcWords (srcNodes ei)) (srcWords (tgtNodes ei))))

/-- Two layers: product, layer sum, bias, cut at zero; product, layer sum, bias. -/
def refShaped (X : FVec F S50000x128 .f32) (ei : IVec S2x1600000 32) (W1 : FVec F S128x64 .f32) (B1 : FVec F S64 .f32)
    (W2 : FVec F S64x64 .f32) (B2 : FVec F S64 .f32) : FVec F S50000x64 .f32 :=
  addf (layerSum ei (Host.dotGeneral Cert.ReferenceIdeal.dot_S50000x64_S64x64_S50000x64_1_0_0_1_n_n none
      (maximumf (addf (layerSum ei (Host.dotGeneral Cert.ReferenceIdeal.dot_S50000x128_S128x64_S50000x64_1_0_0_1_n_n none X W1))
        (biasRows B1)) zeroRows) W2)) (biasRows B2)

set_option maxRecDepth 65536 in
/-- The reference's own result term is that function of its arguments: the two spell the same operations. -/
theorem refShaped_eq (m' : (ℓ : Loc Cert.ReferenceIdeal.nD Cert.ReferenceIdeal.τ Cert.ReferenceIdeal.sig) → Buf (Elt F) ℓ)
    (c : Dev Cert.ReferenceIdeal.nD) :
    Cert.ReferenceIdeal.ValueP.res_main_v90 m' c
      = refShaped (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  unfold Cert.ReferenceIdeal.ValueP.res_main_v90
  rfl

end AnyInstance

/-! ## At the ideal instance -/

theorem zeroRows_apply (i : S50000x64.Idx) : zeroRows (F := Ideal) i = 0 := Ideal.ofBits_zero_f32

/-- d is finite and nonnegative at every node. -/
theorem dinv_nonneg_fin (ei : IVec S2x1600000 32) (v : S50000.Idx) :
    0 ≤ dinv (F := Ideal) ei v ∧ dinv (F := Ideal) ei v ≠ ⊤ :=
  dinv_fin (degree (F := Ideal) ei) _ _ (fun _ => Ideal.ofBits_zero_f32) (fun _ => Ideal.ofBits_zero_f32) v

/-- D at (v, c) is d at v. -/
theorem dinvRows_apply (ei : IVec S2x1600000 32) (i : S50000x64.Idx) :
    dinvRows (F := Ideal) ei i = dinv (F := Ideal) ei (ix1 (i 0)) := by
  unfold dinvRows
  refine (broadcastInDim_apply _ _ _ i (ix2 (i 0) (0 : Fin 1))
    (fun a => by match a with | ⟨0, _⟩ => rfl | ⟨1, _⟩ => rfl)).trans ?_
  exact broadcastInDim_apply _ _ _ (ix2 (i 0) (0 : Fin 1)) (ix1 (i 0)) (fun a => by match a with | ⟨0, _⟩ => rfl)

/-- The word array of a list of nodes holds, for edge e, the node e of the list. -/
theorem words_apply (v : IVec S1650000 32) (e : Fin 1650000) :
    broadcastInDim S1650000x1 ![0] bcast_S1650000_S1650000x1_0 v (wordAt e) = v (ix1 e) :=
  broadcastInDim_apply _ _ _ (wordAt e) (ix1 e) (fun a => by match a with | ⟨0, _⟩ => rfl)

/-- A nonnegative target word is its own wrap. -/
theorem wrap_of_nonneg (d : IVec S1650000 32) (e : Fin 1650000) (h : 0 ≤ (tgtWords d (wordAt e)).toInt) :
    srcWords d (wordAt e) = tgtWords d (wordAt e) := by
  have ht : tgtWords d (wordAt e) = d (ix1 e) := words_apply d e
  rw [ht] at h ⊢
  unfold srcWords
  refine (words_apply _ e).trans ?_
  rw [select_apply]
  have hc : cmpi .slt d (broadcastInDim S1650000 ![] bcast_S_S1650000 (constantI S_ 32 0#32)) (ix1 e) = 0#1 := by
    show IntOp.cmpi .slt (d (ix1 e)) 0#32 = 0#1
    unfold IntOp.cmpi
    have hs : (d (ix1 e)).slt 0#32 = false := by
      have h0 : (0#32 : BitVec 32).toInt = 0 := by decide
      simp only [BitVec.slt, h0, decide_eq_false_iff_not, not_lt]
      exact h
    rw [hs]; rfl
  rw [hc, select_zero]

/-- The bias repeated over the nodes, at (v, c), is the bias of channel c; -/
theorem biasRows_apply (b : FVec Ideal S64 .f32) (i : S50000x64.Idx) : biasRows b i = b (ix1 (i 1)) := by
  unfold biasRows
  refine (broadcastInDim_apply _ _ _ i (ix2 (0 : Fin 1) (i 1))
    (fun a => by match a with | ⟨0, _⟩ => rfl | ⟨1, _⟩ => rfl)).trans ?_
  exact broadcastInDim_apply _ _ _ (ix2 (0 : Fin 1) (i 1)) (ix1 (i 1)) (fun a => by match a with | ⟨0, _⟩ => rfl)

/-- and so is the bias laid out as one row, at (0, c). -/
theorem biasRow_apply (b : FVec Ideal S64 .f32) (k : Fin 64) :
    shapeCast S1x64 b shapeCasts_S64_S1x64 (ix2 (0 : Fin 1) k) = b (ix1 k) :=
  shapeCast_apply b _ (ix2 (0 : Fin 1) k) (ix1 k) (by
    rw [Shape.rowMajor_val_one, Shape.rowMajor_val_two]
    show k.val = 0 * 64 + k.val
    omega)

/-- The first region's array is the host's product X · W1 scaled by D. -/
theorem scaled_eq (X : FVec Ideal S50000x128 .f32) (W : FVec Ideal S128x64 .f32) (D : FVec Ideal S50000x64 .f32) :
    GcnR0.scaledProduct X W D
      = mulf (Host.dotGeneral Cert.ReferenceIdeal.dot_S50000x128_S128x64_S50000x64_1_0_0_1_n_n none X W) D := by
  funext i
  exact congrArg (· * D i) (Cert.ReferenceIdeal.GcnRef.dot1_apply X W i).symm

/-- The second region's array is the host's product of the cut layer-one output with W2, scaled by D. -/
theorem second_eq (A D : FVec Ideal S50000x64 .f32) (B1 : FVec Ideal S64 .f32) (W : FVec Ideal S64x64 .f32) :
    GcnR1.secondProduct A D (shapeCast S1x64 B1 shapeCasts_S64_S1x64) W
      = mulf (Host.dotGeneral Cert.ReferenceIdeal.dot_S50000x64_S64x64_S50000x64_1_0_0_1_n_n none
          (maximumf (addf (mulf A D) (biasRows B1)) zeroRows) W) D := by
  funext i
  refine congrArg (· * D i) ?_
  refine Eq.trans ?_ (Cert.ReferenceIdeal.GcnRef.dot2_apply _ W i).symm
  refine Finset.sum_congr rfl fun k _ => congrArg (· * W (ix2 k (i 1))) ?_
  show max (A (ix2 (i 0) k) * D (ix2 (i 0) k) + shapeCast S1x64 B1 shapeCasts_S64_S1x64 (ix2 (0 : Fin 1) k)) 0
    = max (A (ix2 (i 0) k) * D (ix2 (i 0) k) + biasRows B1 (ix2 (i 0) k)) (zeroRows (F := Ideal) (ix2 (i 0) k))
  rw [zeroRows_apply, biasRow_apply, biasRows_apply]

/-- THE LAYER IDENTITY at this program's arrays: scaling the rows by D, aggregating and scaling by D again is the
    reference's layer sum. -/
theorem layer_kernel (ei : IVec S2x1600000 32) (h : FVec Ideal S50000x64 .f32) :
    mulf (aggregate (mulf h (dinvRows ei)) (srcNodes ei) (tgtNodes ei)) (dinvRows ei) = layerSum ei h :=
  Cert.Gcn.layer _ _ h (dinvRows ei) zeroRows _ (dinv ei) (srcWords (srcNodes ei)) (tgtWords (tgtNodes ei))
    (srcWords (tgtNodes ei)) zeroRows_apply (dinvRows_apply ei) (dinv_nonneg_fin ei) (wrap_of_nonneg (tgtNodes ei))
    (Cert.ReferenceIdeal.GcnRef.normRows_apply (dinv ei) _ _)

variable (m : (ℓ : Loc nD τ sig) → Buf (Elt Ideal) ℓ) (ρ : Dev nD → PrngReg)

/-- The kernel program's result buffer ends at the two-layer function of its six arguments as launched. -/
theorem kernel_value (c : Dev nD) :
    W7 m ρ c (Proc.devRef .tc main_v43)
      = refShaped (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [at7_result, region1_value, second_eq, scaled_eq, layer_kernel, layer_kernel]
  rfl

end Cert.Proof.GcnBridge

end
-- ==== Proof.lean ====
/-
  A two-layer graph convolution on 50000 nodes and 1.6 million directed edges (a self loop appended for every node),
  as a kernel program with two matrix-product regions and as a plain reference, computes one function of its six arguments
  over the extended reals.

  Write d(v) for the reciprocal square root of node v's degree (0 where the degree is not positive). A layer with
  features h, weights W and bias b is

      out(v, c) = Σ over edges e with target v of  (h·W)(s(e), c) · ( d(s(e)) · d(v) )  +  b(c).

  The reference gathers d at both ends of every edge and scales the edge's row by the product. The kernel scales the rows
  of h·W by d before sending them along the edges and scales the sums by d afterwards; its first region computes
  (X·W1)⊙D, its second region cuts (sum⊙D + b1) at zero, multiplies by W2 and scales by D again. Taking the factor d(v) out
  of the sum over the edges into v is distributivity, valid on the extended reals because d(v) is finite and nonnegative;
  nothing is assumed of the features, so the precondition is not used. Edges whose target word is out of range are dropped
  by both programs; an edge that lands on v has target word exactly v.

  The three frames: the two kernel programs' are the generated frame proofs; the reference's is its run with the result
  dropped. No operation was rewritten by the idealization, so there is nothing to preserve.
-/
import proofs.«179716_j10170482556975_2_alg».proof.Defs
import proofs.«179716_j10170482556975_2_alg».proof.Proof.Gen.Kernel
import proofs.«179716_j10170482556975_2_alg».proof.Proof.Gen.Kernel.Skeleton
import proofs.«179716_j10170482556975_2_alg».proof.Proof.Gen.Kernel.Launch
import proofs.«179716_j10170482556975_2_alg».proof.Proof.Gen.Kernel.Points
import proofs.«179716_j10170482556975_2_alg».proof.Proof.Gen.Kernel.Frame
import proofs.«179716_j10170482556975_2_alg».proof.Proof.Gen.KernelIdeal
import proofs.«179716_j10170482556975_2_alg».proof.Proof.Gen.KernelIdeal.Skeleton
import proofs.«179716_j10170482556975_2_alg».proof.Proof.Gen.KernelIdeal.Launch
import proofs.«179716_j10170482556975_2_alg».proof.Proof.Gen.KernelIdeal.Points
import proofs.«179716_j10170482556975_2_alg».proof.Proof.Gen.KernelIdeal.Frame
import proofs.«179716_j10170482556975_2_alg».proof.Proof.Gen.ReferenceIdeal
import proofs.«179716_j10170482556975_2_alg».proof.Proof.Gen.Pre_finite_inputs
import proofs.«179716_j10170482556975_2_alg».proof.Proof.KernelRun
import proofs.«179716_j10170482556975_2_alg».proof.Proof.ReferenceRun
import proofs.«179716_j10170482556975_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs run, and the reference's result is the kernel
    program's: both are the two-layer function of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v43),
    Cert.KernelIdeal.GcnRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.Proof.GcnBridge.refShaped_eq m' c).trans ?_
  rw [(hagree c).1, (hagree c).2.1, (hagree c).2.2.1, (hagree c).2.2.2.1, (hagree c).2.2.2.2.1, (hagree c).2.2.2.2.2]
  exact (Cert.Proof.GcnBridge.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
